-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S8192x768 : Shape := ⟨2, ![8192, 768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S8192x768 : S_.BroadcastsInDim S8192x768 (![] : Fin 0 → Fin S8192x768.rank)
  reducesTo_S8192x768_S_d0_1 : S8192x768.ReducesTo [0, 1] S_

variable [Facts]

def fn {F : FTy → Type} [FloatOps F] (main_arg0 : FVec F S4x8192x768 .f32) (main_arg1 : FVec F S8192x768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  main_v8
-- ==== Kernel.lean ====
abbrev S4x8192x768 : Shape := ⟨3, ![4, 8192, 768]⟩
abbrev S8192x768 : Shape := ⟨2, ![8192, 768]⟩
abbrev S4x1024x768 : Shape := ⟨3, ![4, 1024, 768]⟩
abbrev S1024x768 : Shape := ⟨2, ![1024, 768]⟩
abbrev S1024 : Shape := ⟨1, ![1024]⟩
abbrev S1024x1 : Shape := ⟨2, ![1024, 1]⟩
abbrev S1x1024x768 : Shape := ⟨3, ![1, 1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S4x8192x768, .f32⟩
  | .local _ .vmem, ⟨0, _⟩ => ⟨S4x1024x768, .f32⟩
  | .local _ .vmem, ⟨1, _⟩ => ⟨S4x1024x768, .f32⟩
  | .local _ .vmem, ⟨2, _⟩ => ⟨S1024x768, .f32⟩
  | .local _ .vmem, ⟨3, _⟩ => ⟨S1024x768, .f32⟩
  | .local _ .vmem, ⟨4, _⟩ => ⟨S4x1024x768, .f32⟩
  | .local _ .vmem, ⟨5, _⟩ => ⟨S4x1024x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x768_S1024x768_0_0 : ∀ a, (![0, 0] : Fin 2 → Nat) a + S1024x768.size a ≤ S1024x768.size a
  h_S1024x768 : 0 < S1024x768.numel
  reduces_S1024x768_S1024 : S1024x768.Reduces [1] S1024
  shapeCasts_S1024_S1024x1 : S1024.ShapeCasts S1024x1
  inb_S4x1024x768_S4x1024x768_0_0_0 : ∀ a, (![0, 0, 0] : Fin 3 → Nat) a + S4x1024x768.size a ≤ S4x1024x768.size a
  h_S4x1024x768 : 0 < S4x1024x768.numel
  broadcasts_S1024x1_S1024x768 : S1024x1.Broadcasts S1024x768
  shapeCasts_S1024x768_S1x1024x768 : S1024x768.ShapeCasts S1x1024x768
  broadcasts_S1x1024x768_S4x1024x768 : S1x1024x768.Broadcasts S4x1024x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x768.size a ≤ S4x8192x768.size a
  hwx0_0 : ∀ i : grid0.Coords, EltTy.bits .f32 = 32 ∨ (Rect.block (s := S4x8192x768) S4x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S8192x768.size a
  hwx0_1 : ∀ i : grid0.Coords, EltTy.bits .f32 = 32 ∨ (Rect.block (s := S8192x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024x768.size a ≤ S4x8192x768.size a
  hwx0_2 : ∀ i : grid0.Coords, EltTy.bits .f32 = 32 ∨ (Rect.block (s := S4x8192x768) S4x1024x768.size (cc0_transform_2 i) (hinb0_2 i)).WholeWords (EltTy.packing .f32)

variable [Facts₀]

abbrev win0_0 : Pipeline.Window sig grid0 :=
  Pipeline.Window.ofSpec (Memref.whole main_arg0) S4x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x1024x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S8192x768 : Shape := ⟨2, ![8192, 768]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x768 : Shape := ⟨3, ![1, 8192, 768]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x768, .f32⟩
  | .hbm, ⟨22, _⟩ => ⟨S8192x768, .i1⟩
  | .hbm, ⟨23, _⟩ => ⟨S_, .f32⟩
  | .hbm, ⟨24, _⟩ => ⟨S8192x768, .f32⟩
  | .hbm, ⟨25, _⟩ => ⟨S8192x768, .f32⟩
  | .hbm, ⟨26, _⟩ => ⟨S8192x768, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x768, .f32⟩
  | .hbm, ⟨41, _⟩ => ⟨S8192x768, .f32⟩
  | .hbm, ⟨42, _⟩ => ⟨S1x8192x768, .f32⟩
  | .hbm, ⟨43, _⟩ => ⟨S4x8192x768, .f32⟩
  | .hbm, ⟨44, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_call1_v0 : Ref sig .tc := ⟨.hbm, 26, rfl⟩
abbrev main_call1_cst : Ref sig .tc := ⟨.hbm, 27, rfl⟩
abbrev main_call1_v1 : Ref sig .tc := ⟨.hbm, 28, rfl⟩
abbrev main_call1_v2 : Ref sig .tc := ⟨.hbm, 29, rfl⟩
abbrev main_v2 : Ref sig .tc := ⟨.hbm, 30, rfl⟩
abbrev main_cst : Ref sig .tc := ⟨.hbm, 31, rfl⟩
abbrev main_v3 : Ref sig .tc := ⟨.hbm, 32, rfl⟩
abbrev main_v4 : Ref sig .tc := ⟨.hbm, 33, rfl⟩
abbrev main_cst_0 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x768_0 : S8192.BroadcastsInDim S8192x768 (![0] : Fin 1 → Fin S8192x768.rank)
  bcast_S_S8192x768 : S_.BroadcastsInDim S8192x768 (![] : Fin 0 → Fin S8192x768.rank)
  reducesTo_S8192x768_S8192_d1 : S8192x768.ReducesTo [1] S8192
  bcast_S8192x1_S8192x768_0_1 : S8192x1.BroadcastsInDim S8192x768 (![0, 1] : Fin 2 → Fin S8192x768.rank)
  bcast_S8192x768_S1x8192x768_1_2 : S8192x768.BroadcastsInDim S1x8192x768 (![1, 2] : Fin 2 → Fin S1x8192x768.rank)
  bcast_S1x8192x768_S4x8192x768_0_1_2 : S1x8192x768.BroadcastsInDim S4x8192x768 (![0, 1, 2] : Fin 3 → Fin S4x8192x768.rank)
  gather_S8192x768_S8192x1_S8192x768_1_0_n_n_0_1_1768_wf : GatherDims.WF S8192x768 S8192x1 S8192x768 [1] [0] [] [0] [] 1 ![1, 768]

variable [Facts₀]

def gather_S8192x768_S8192x1_S8192x768_1_0_n_n_0_1_1768 : GatherDims S8192x768 S8192x1 S8192x768 where
  offsetDims := [1]
  collapsedSliceDims := [0]
  operandBatchingDims := []
  startIndicesBatchingDims := []
  startIndexMap := [0]
  indexVectorDim := 1
  sliceSizes := ![1, 768]
  wf := gather_S8192x768_S8192x1_S8192x768_1_0_n_n_0_1_1768_wf

class Facts : Prop extends Facts₀ where

variable [Facts]
-- ==== Proof.Spec.lean ====
/-
  The array both programs compute, entry by entry.

  `x : [4, 8192, 768]` is a batch of sequences and `W : [8192, 768]` a table with one row per position. Row `r` of the
  table has squared length `rowSq W r = ∑_q W(r,q)²`; the row is shrunk by the factor
  `clip s = min(1, K / max(√s, ε))` of its squared length `s` (`K` and `ε` two float literals, the same words in both
  programs, never evaluated here), and added to every batch entry:

      G x W (b, r, q) = x(b, r, q) + W(r, q) · clip (rowSq W r).

  All operations are the exact ones on the extended reals.
-/
import Idealize.ShloMosaic.PureOps.Ideal
import Idealize.ShloMosaic.Lib.ValueIdx

noncomputable section

open scoped BigOperators

namespace Cert.PosEnc

open Idealize.ShloMosaic Idealize.ShloMosaic.ValueIdx

/-- The squared length of row `r` of the table. -/
def rowSq (W : (⟨2, ![8192, 768]⟩ : Shape).Idx → EReal) (r : Fin 8192) : EReal :=
  ∑ q : Fin 768, W (ix2 r q) * W (ix2 r q)

/-- The factor a row of squared length `s` is shrunk by: `min(1, K / max(√s, ε))`. -/
def clip (s : EReal) : EReal :=
  min (Ideal.ofBits .f32 0x3F800000#32)
    (Ideal.div (Ideal.ofBits .f32 0x41DDB3D7#32) (max (Ideal.sqrt s) (Ideal.ofBits .f32 0x2B8CBCCC#32)))

/-- The result at batch entry `b`, position `r`, feature `q`. -/
def entry (x : (⟨3, ![4, 8192, 768]⟩ : Shape).Idx → EReal) (W : (⟨2, ![8192, 768]⟩ : Shape).Idx → EReal)
    (b : Fin 4) (r : Fin 8192) (q : Fin 768) : EReal :=
  x (ix3 b r q) + W (ix2 r q) * clip (rowSq W r)

/-- The whole result array. -/
def G (x : (⟨3, ![4, 8192, 768]⟩ : Shape).Idx → EReal) (W : (⟨2, ![8192, 768]⟩ : Shape).Idx → EReal) :
    (⟨3, ![4, 8192, 768]⟩ : Shape).Idx → EReal :=
  fun i => entry x W (i 0) (i 1) (i 2)

theorem G_ix3 (x : (⟨3, ![4, 8192, 768]⟩ : Shape).Idx → EReal) (W : (⟨2, ![8192, 768]⟩ : Shape).Idx → EReal)
    (b : Fin 4) (r : Fin 8192) (q : Fin 768) : G x W (ix3 b r q) = entry x W b r q := rfl

end Cert.PosEnc

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibRowOps.lean ====
/-
  General readings, at the ideal values, of the operations a row-wise dense layer and a row-wise reduction are printed
  with, each at an entry given by its coordinates.

  * An affine layer `A·B + b` (the bias a vector laid along every row): the entry `(r, c)` is `∑_q A_{r,q} B_{q,c} + b_c`,
    whether it is spelt as a kernel spells it (a matrix product accumulated into the zero splat, plus the broadcast of the
    bias's one-row cast) or as the host does (a `dot_general`, plus the bias broadcast to one row and then down the rows).
  * A sum along the rows of a matrix: the entry `r` is `∑_q v_{r,q}`, for the kernel's lane reduction (whose neutral
    accumulator the reading drops) and, with the initial value in front, for the host's `reduce`.
  * A column `[a, 1]` turned on its side and given a leading unit axis reads back, at `(0, 0, j)`, the column at `(j, 0)`.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import proofs.«101833_g4449586119098_cont_8to1_c_163_5_alg».proof.Proof.LibMatmulPlain

noncomputable section

open scoped BigOperators

namespace Cert.LibRowOps

open Idealize.ShloMosaic Idealize.ShloMosaic.ValueIdx

/-- A kernel's affine layer at an entry: the matrix product with the plain dimension numbers into the zero splat, plus the
    bias vector cast to one row and broadcast down the rows. -/
theorem kernel_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix1 c) := by
  subst hdd
  rw [addf_apply, LibMatmulPlain.matmul_plain_zero_apply, broadcastTo_1b_ab_apply, shapeCast_a_1a_apply]

/-- The host's affine layer at an entry: a `dot_general` with the plain dimension numbers, plus the bias vector broadcast to
    one row and that row broadcast down the rows. -/
theorem host_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (c : Fin n) :
    addf (Host.dotGeneral dd prec A B)
        (broadcastInDim ⟨2, ![m, n]⟩ ![0, 1] hd2 (broadcastInDim ⟨2, ![1, n]⟩ ![1] hd1 b)) (ix2 r c)
      = (∑ q : Fin k, A (ix2 r q) * B (ix2 q c)) + b (ix1 c) := by
  subst hdd
  rw [addf_apply, StackMember.dotGeneral_plain_apply, broadcastInDim_oneRow_apply]
  refine congrArg (_ + ·) ?_
  refine broadcastInDim_apply ![1] hd1 b (ix2 (0 : Fin 1) c) (ix1 c) fun a => ?_
  match a with
  | ⟨0, _⟩ =>
    show c.val = if n = 1 then 0 else c.val
    split
    · have := c.isLt; omega
    · rfl

/-- A kernel's sum along the rows of a matrix, at row `r`. -/
theorem kernel_rowsum_apply {m k : Nat} (v : FVec Ideal ⟨2, ![m, k]⟩ .f32)
    (h : (⟨2, ![m, k]⟩ : Shape).Reduces [1] ⟨1, ![m]⟩) (hφ : FKind.Formats .f32)
    (hacc : (0x00000000#32 : BitVec FTy.f32.bits) = FKind.add.neutral .f32 hφ) (r : Fin m) :
    multiReduction .add [1] ⟨1, ![m]⟩ v 0x00000000#32 h hφ hacc (ix1 r) = ∑ q : Fin k, v (ix2 r q) := by
  refine (Ideal.multiReduction_add_single v 0x00000000#32 h hφ hacc (ix1 r)).trans ?_
  refine Finset.sum_congr rfl fun q _ => congrArg v (funext fun a => Fin.ext ?_)
  match a with
  | ⟨0, _⟩ => rfl
  | ⟨1, _⟩ => rfl

/-- The host's sum along the rows of a matrix from a scalar initial value, at row `r`. -/
theorem host_rowsum_apply {m k : Nat} (v : FVec Ideal ⟨2, ![m, k]⟩ .f32) (init : FVec Ideal ⟨0, ![]⟩ .f32)
    (h' : (⟨2, ![m, k]⟩ : Shape).ReducesTo [1] ⟨1, ![m]⟩) (h : (⟨2, ![m, k]⟩ : Shape).Reduces [1] ⟨1, ![m]⟩)
    (hu : 0 < (⟨0, ![]⟩ : Shape).numel) (r : Fin m) :
    Host.reduceAdd v init h' hu (ix1 r) = init ix0 + ∑ q : Fin k, v (ix2 r q) := by
  show Ideal.hostReduceAdd h' v (init (Shape.Idx.first hu)) (ix1 r) = _
  rw [Ideal.hostReduceAdd_single h' h, eq_ix0 (Shape.Idx.first hu)]
  refine congrArg (_ + ·) (Finset.sum_congr rfl fun q _ => congrArg v (funext fun a => Fin.ext ?_))
  match a with
  | ⟨0, _⟩ => rfl
  | ⟨1, _⟩ => rfl

/-- A column turned on its side and given a leading unit axis, read at `(0, 0, j)`: the column's entry of row `j`. -/
theorem column_as_lanes_apply {a : Nat} {α : Type} (x : (⟨2, ![a, 1]⟩ : Shape).Idx → α)
    (ht : (⟨2, ![a, 1]⟩ : Shape).Transposes [1, 0] ⟨2, ![1, a]⟩)
    (hc : (⟨2, ![1, a]⟩ : Shape).ShapeCasts ⟨3, ![1, 1, a]⟩) (j : Fin a) :
    shapeCast ⟨3, ![1, 1, a]⟩ (transpose ⟨2, ![1, a]⟩ [1, 0] x ht) hc (ix3 (0 : Fin 1) (0 : Fin 1) j) = x (ix2 j (0 : Fin 1)) := by
  rw [shapeCast_ab_1ab_apply, transpose_ix2_apply]

end Cert.LibRowOps

end
-- ==== Proof.KernelValue.lean ====
/-
  What the kernel leaves in its result array, at the exact values.

  The grid has eight points; point `t` stages rows `1024·t … 1024·t + 1023` of the table and the same positions of every
  batch entry, and writes back the same positions of the result. Inside a block, entry `(b, r, q)` is the batch entry
  plus the table row's entry times the clip factor of that row's squared length — the row being complete inside the
  block, its squared length is the whole row's. Read through the blocks, which tile the array along the position axis,
  the result array is `PosEnc.G` of the two argument arrays.
-/
import proofs.«101833_g4449586119098_cont_8to1_c_163_5_alg».proof.Proof.Gen.KernelIdeal.Value
import proofs.«101833_g4449586119098_cont_8to1_c_163_5_alg».proof.Proof.Spec
import proofs.«101833_g4449586119098_cont_8to1_c_163_5_alg».proof.Proof.LibRowOps
import Idealize.ShloMosaic.Lib.Pipeline.Value

noncomputable section

open scoped BigOperators

namespace Cert.KernelIdeal.Hand

open Cert.KernelIdeal Cert.KernelIdeal.Gen Cert.KernelIdeal.Value Idealize.ShloMosaic Idealize.ShloMosaic.TcCoe Idealize.SL.Sem
open Idealize.ShloMosaic.ValueIdx Cert.PosEnc
open Idealize.ShloMosaic.Pipeline (Dat)

variable (m : (ℓ : Loc nD τ sig) → Buf (Elt Ideal) ℓ) (ρ : Dev nD → PrngReg)

/-! ## Inside one block -/

/-- Entry `(b, r, q)` of what a point leaves in its result block, from the two blocks it loaded: the batch entry plus
    the table entry times the clip factor of the squared length of the table block's row `r`. -/
theorem block_entry (P0 : FVec Ideal S4x1024x768 .f32) (P1 : FVec Ideal S1024x768 .f32) (b : Fin 4) (r : Fin 1024) (q : Fin 768) :
    E2 (F := Ideal) P0 P1 (ix3 b r q) = P0 (ix3 b r q) + P1 (ix2 r q) * clip (∑ k : Fin 768, P1 (ix2 r k) * P1 (ix2 r k)) := by
  have h0 : ix2_0 (ix3 b r q) = ix3 b r q := funext fun a => Fin.ext (by
    match a with
    | ⟨0, _⟩ => rfl
    | ⟨1, _⟩ => rfl
    | ⟨2, _⟩ => rfl)
  have h1 : ix2_1 (ix3 b r q) = ix2 r q := funext fun a => Fin.ext (by
    match a with
    | ⟨0, _⟩ => rfl
    | ⟨1, _⟩ => rfl)
  have h2 : ix2_2 (ix3 b r q) = ix1 r := funext fun a => Fin.ext (by
    match a with
    | ⟨0, _⟩ => rfl)
  have hs : (multiReduction (F := Ideal) .add [1] S1024 (mulf (F := Ideal) P1 P1) 0x00000000#32 reduces_S1024x768_S1024 (.inl rfl) rfl) (ix1 r)
      = ∑ k : Fin 768, (mulf (F := Ideal) P1 P1) (ix2 r k) :=
    Cert.LibRowOps.kernel_rowsum_apply (mulf (F := Ideal) P1 P1) reduces_S1024x768_S1024 (.inl rfl) rfl r
  show FloatOps.addf (F := Ideal) (P0 (ix2_0 (ix3 b r q))) (FloatOps.mulf (P1 (ix2_1 (ix3 b r q))) (FloatOps.minimumf (Scalar.ofBits .f32 0x3F800000#32) (FloatOps.divf (Scalar.ofBits .f32 0x41DDB3D7#32) (FloatOps.maximumf (FloatOps.sqrt ((multiReduction .add [1] S1024 (mulf P1 P1) 0x00000000#32 reduces_S1024x768_S1024 (.inl rfl) rfl) (ix2_2 (ix3 b r q)))) (Scalar.ofBits .f32 0x2B8CBCCC#32))))) = _
  rw [h0, h1, h2, hs]
  rfl

/-! ## The blocks inside the arrays -/

/-- The printed index maps over the grid: point `t` takes block `t` along the position axis of each array. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 3) = 0 ∧ win0_2.index t (1 : Fin 3) = t.val ∧ win0_2.index t (2 : Fin 3) = 0 :=
  (by decide +kernel : ∀ t : Fin grid0.N, _)

/-- The batch block at point `t`: its entry `(b, r, q)` is the batch array's at position `1024·t + r`. -/
theorem batch_block (c : Dev nD) (t : Fin cfg0.N) (b : Fin 4) (r : Fin 1024) (q : Fin 768) (R : Fin 8192)
    (hR : R.val = t.val * 1024 + r.val) :
    (iblk m c 0 t : Vec Ideal S4x1024x768 .f32) (ix3 b r q) = (V m c main_arg0 : S4x8192x768.Idx → Elt Ideal .f32) (ix3 b R q) := by
  obtain ⟨e0, e1, e2, -, -, -, -, -⟩ := idx_facts t
  show (V m c main_arg0 : S4x8192x768.Idx → Elt Ideal .f32) (((cfg0.win 0).blk t).view.emb (ix3 b r q)) = _
  refine congrArg (V m c main_arg0 : S4x8192x768.Idx → Elt Ideal .f32) (funext fun a => Fin.ext ?_)
  match a with
  | ⟨0, _⟩ => show win0_0.index t (0 : Fin 3) * 4 + 1 * b.val = b.val; omega
  | ⟨1, _⟩ => show win0_0.index t (1 : Fin 3) * 1024 + 1 * r.val = R.val; omega
  | ⟨2, _⟩ => show win0_0.index t (2 : Fin 3) * 768 + 1 * q.val = q.val; omega

/-- The table block at point `t`: its row `r` is the table's row `1024·t + r`. -/
theorem table_block (c : Dev nD) (t : Fin cfg0.N) (r : Fin 1024) (q : Fin 768) (R : Fin 8192)
    (hR : R.val = t.val * 1024 + r.val) :
    (iblk m c 1 t : Vec Ideal S1024x768 .f32) (ix2 r q) = (V m c main_arg1 : S8192x768.Idx → Elt Ideal .f32) (ix2 R q) := by
  obtain ⟨-, -, -, e0, e1, -, -, -⟩ := idx_facts t
  show (V m c main_arg1 : S8192x768.Idx → Elt Ideal .f32) (((cfg0.win 1).blk t).view.emb (ix2 r q)) = _
  refine congrArg (V m c main_arg1 : S8192x768.Idx → Elt Ideal .f32) (funext fun a => Fin.ext ?_)
  match a with
  | ⟨0, _⟩ => show win0_1.index t (0 : Fin 2) * 1024 + 1 * r.val = R.val; omega
  | ⟨1, _⟩ => show win0_1.index t (1 : Fin 2) * 768 + 1 * q.val = q.val; omega

/-- Where entry `(b, r, q)` of point `t`'s result block sits in the result array. -/
theorem result_block_emb (t : Fin cfg0.N) (b : Fin 4) (r : Fin 1024) (q : Fin 768) (R : Fin 8192)
    (hR : R.val = t.val * 1024 + r.val) :
    (((cfg0.win 2).blk t).view.emb (ix3 b r q) : S4x8192x768.Idx) = ix3 b R q := by
  obtain ⟨-, -, -, -, -, e0, e1, e2⟩ := idx_facts t
  refine funext fun a => Fin.ext ?_
  match a with
  | ⟨0, _⟩ => show win0_2.index t (0 : Fin 3) * 4 + 1 * b.val = b.val; omega
  | ⟨1, _⟩ => show win0_2.index t (1 : Fin 3) * 1024 + 1 * r.val = R.val; omega
  | ⟨2, _⟩ => show win0_2.index t (2 : Fin 3) * 768 + 1 * q.val = q.val; omega

/-- Point `t`'s result block, entry by entry, is `G` of the argument arrays read at the block's place. -/
theorem block_value (c : Dev nD) (t : Fin cfg0.N) (y : S4x1024x768.Idx) :
    E2 (iblk m c 0 t) (iblk m c 1 t) y
      = G (V m c main_arg0) (V m c main_arg1) (((cfg0.win 2).blk t).view.emb y) := by
  obtain ⟨b, r, q, rfl⟩ : ∃ (b : Fin 4) (r : Fin 1024) (q : Fin 768), y = ix3 b r q := ⟨y 0, y 1, y 2, eq_ix3 y⟩
  have ht : t.val < 8 := by have hN : cfg0.N = 8 := N_0; have := t.isLt; omega
  have hr : r.val < 1024 := r.isLt
  let R : Fin 8192 := ⟨t.val * 1024 + r.val, by omega⟩
  have hR : R.val = t.val * 1024 + r.val := rfl
  rw [block_entry, result_block_emb t b r q R hR, G_ix3, batch_block m c t b r q R hR, table_block m c t r q R hR]
  unfold entry rowSq
  refine congrArg (fun s => _ + _ * clip s) (Finset.sum_congr rfl fun k _ => ?_)
  rw [table_block m c t r k R hR]

/-! ## The result array -/

theorem hz2 : (![0, 0] : Fin 2 → Nat) = fun _ => 0 := funext fun a => by fin_cases a <;> rfl
theorem hz3 : (![0, 0, 0] : Fin 3 → Nat) = fun _ => 0 := funext fun a => by fin_cases a <;> rfl

/-- What point `t` writes back is block `t` of `G` of the argument arrays. -/
theorem flushed_eq (c : Dev nD) (t : Fin cfg0.N) :
    (dats m 0 c).flushed 2 t = ((cfg0.win 2).blk t).view.read (Elt Ideal) (G (V m c main_arg0) (V m c main_arg1)) := by
  show (cfg0.win 2).cut (grid0.coords t) ((dats m 0 c).after 2 t) = _
  rw [after0_2]
  unfold out0_2
  simp only [View.ld_unit_zero (S := S4x1024x768) hz3, View.ld_unit_zero (S := S1024x768) hz2]
  funext j
  exact (canon2_eq (iblk m c 0 t) (iblk m c 1 t) j).trans (block_value m c t j)

/-- An index of the result array is in point `t`'s block iff each coordinate is in the block's range on its axis. -/
theorem mem_blk (t : Fin cfg0.N) (i : S4x8192x768.Idx) :
    i ∈ ((cfg0.win 2).blk t).view.set ↔ ∀ a : Fin 3, win0_2.index t a * S4x1024x768.size a ≤ (i a).val ∧ (i a).val < win0_2.index t a * S4x1024x768.size a + S4x1024x768.size a := by
  show i ∈ ((View.whole main_v0).slice (win0_2.rect t)).set ↔ _
  rw [View.set_slice_whole, Rect.mem_set_unit]
  exact Iff.rfl

/-- Every index of the result array is in the block of the point its position falls in. -/
theorem cover (i : S4x8192x768.Idx) :
    ∃ t : Fin cfg0.N, (cfg0.win 2).flush t = true ∧ i ∈ ((cfg0.win 2).blk t).view.set := by
  have hi0 : (i 0).val < 4 := (i 0).isLt
  have hi1 : (i 1).val < 8192 := (i 1).isLt
  have hi2 : (i 2).val < 768 := (i 2).isLt
  let t : Fin cfg0.N := ⟨(i 1).val / 1024, by have hN : cfg0.N = 8 := N_0; omega⟩
  have htv : t.val = (i 1).val / 1024 := rfl
  obtain ⟨-, -, -, -, -, e0, e1, e2⟩ := idx_facts t
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 768 ≤ (i 2).val ∧ (i 2).val < win0_2.index t (2 : Fin 3) * 768 + 768; omega

/-- The result array after the run is `G` of the argument arrays. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Hand

end
-- ==== Proof.RefRun.lean ====
/-
  The reference program's run, read back.

  Its entry function is a straight line once its three outlined functions are unfolded at their calls: the row numbers
  `0 … 8191`, the table looked up at those rows (`jnp.take`: negative row numbers wrapped, the rows gathered, rows whose
  number is out of range replaced by a filler), the Euclidean length of every looked-up row, the clip factor, the scaled
  rows, and their sum with the batch. Every weakly fair execution runs the operations in order and ends with each
  buffer at the operations' composed value of the two arguments.
-/
import proofs.«101833_g4449586119098_cont_8to1_c_163_5_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations in order, the calls unfolded: the row numbers; the lookup's twenty-four (the wrap of negative
    numbers, the column of row numbers, the range test, the gather, the filler, the select); the length's five;
    the clip factor, the scaling and the sum, fourteen. -/
abbrev ops : List (HloOp τ sig (Elt F)) :=
  [ nullary main_v0 (iotaInDim S8192 32 0),
    TRef.nullary main_call0.c (constantI S_ 32 0#32),
    TRef.unary main_call0.c main_call0.v0 (broadcastInDim S8192 ![] bcast_S_S8192),
    TRef.binary (.of main_v0) main_call0.v0 main_call0.v1 (cmpi .slt),
    TRef.nullary main_call0.c_0 (constantI S_ 32 8192#32),
    TRef.unary main_call0.c_0 main_call0.v2 (broadcastInDim S8192 ![] bcast_S_S8192),
    TRef.binary (.of main_v0) main_call0.v2 main_call0.v3 addi,
    TRef.ternary main_call0.v1 main_call0.v3 (.of main_v0) main_call0.call0.v0 select,
    TRef.unary main_call0.call0.v0 main_call0.v5 (broadcastInDim S8192x1 ![0] bcast_S8192_S8192x1_0),
    TRef.nullary main_call0.c_1 (constantI S1 32 8191#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S8192x768_S8192x1_S8192x768_1_0_n_n_0_1_1768 x i),
    TRef.unary main_call0.v12 main_call0.v14 (broadcastInDim S8192x768 ![0] bcast_S8192_S8192x768_0),
    TRef.nullary main_call0.cst (constant S_ .f32 0x7FC00000#32),
    TRef.unary main_call0.cst main_call0.v15 (broadcastInDim S8192x768 ![] bcast_S_S8192x768),
    TRef.ternary main_call0.v14 main_call0.v13 main_call0.v15 main_call0.v16 select,
    TRef.binary (.of main_v1) (.of main_v1) main_call1.v0 mulf,
    TRef.nullary main_call1.cst (constant S_ .f32 0x00000000#32),
    TRef.binary main_call1.v0 main_call1.cst main_call1.v1 (fun x v => Host.reduceAdd x v reducesTo_S8192x768_S8192_d1 h_S_),
    TRef.unary main_call1.v1 main_call1.v2 (broadcastInDim S8192x1 ![0] bcast_S8192_S8192x1_0),
    TRef.unary main_call1.v2 main_call1.v3 Host.sqrt,
    nullary main_cst (constant S_ .f32 0x2B8CBCCC#32),
    unary main_cst main_v3 (broadcastInDim S8192x1 ![] bcast_S_S8192x1 : (⟨S_, .f32⟩ : BufTy).Contents (Elt F) → (⟨S8192x1, .f32⟩ : BufTy).Contents (Elt F)),
    binary main_v2 main_v3 main_v4 (maximumf : (⟨S8192x1, .f32⟩ : BufTy).Contents (Elt F) → (⟨S8192x1, .f32⟩ : BufTy).Contents (Elt F) → (⟨S8192x1, .f32⟩ : BufTy).Contents (Elt F)),
    nullary main_cst_0 (constant S_ .f32 0x41DDB3D7#32),
    unary main_cst_0 main_v5 (broadcastInDim S8192x1 ![] bcast_S_S8192x1 : (⟨S_, .f32⟩ : BufTy).Contents (Elt F) → (⟨S8192x1, .f32⟩ : BufTy).Contents (Elt F)),
    binary main_v5 main_v4 main_v6 (Host.divf : (⟨S8192x1, .f32⟩ : BufTy).Contents (Elt F) → (⟨S8192x1, .f32⟩ : BufTy).Contents (Elt F) → (⟨S8192x1, .f32⟩ : BufTy).Contents (Elt F)),
    nullary main_cst_1 (constant S_ .f32 0x3F800000#32),
    unary main_cst_1 main_v7 (broadcastInDim S8192x1 ![] bcast_S_S8192x1 : (⟨S_, .f32⟩ : BufTy).Contents (Elt F) → (⟨S8192x1, .f32⟩ : BufTy).Contents (Elt F)),
    binary main_v7 main_v6 main_v8 (minimumf : (⟨S8192x1, .f32⟩ : BufTy).Contents (Elt F) → (⟨S8192x1, .f32⟩ : BufTy).Contents (Elt F) → (⟨S8192x1, .f32⟩ : BufTy).Contents (Elt F)),
    unary main_v8 main_v9 (broadcastInDim S8192x768 ![0, 1] bcast_S8192x1_S8192x768_0_1 : (⟨S8192x1, .f32⟩ : BufTy).Contents (Elt F) → (⟨S8192x768, .f32⟩ : BufTy).Contents (Elt F)),
    binary main_v1 main_v9 main_v10 (mulf : (⟨S8192x768, .f32⟩ : BufTy).Contents (Elt F) → (⟨S8192x768, .f32⟩ : BufTy).Contents (Elt F) → (⟨S8192x768, .f32⟩ : BufTy).Contents (Elt F)),
    unary main_v10 main_v11 (broadcastInDim S1x8192x768 ![1, 2] bcast_S8192x768_S1x8192x768_1_2 : (⟨S8192x768, .f32⟩ : BufTy).Contents (Elt F) → (⟨S1x8192x768, .f32⟩ : BufTy).Contents (Elt F)),
    unary main_v11 main_v12 (broadcastInDim S4x8192x768 ![0, 1, 2] bcast_S1x8192x768_S4x8192x768_0_1_2 : (⟨S1x8192x768, .f32⟩ : BufTy).Contents (Elt F) → (⟨S4x8192x768, .f32⟩ : BufTy).Contents (Elt F)),
    binary main_arg0 main_v12 main_v13 (addf : (⟨S4x8192x768, .f32⟩ : BufTy).Contents (Elt F) → (⟨S4x8192x768, .f32⟩ : BufTy).Contents (Elt F) → (⟨S4x8192x768, .f32⟩ : BufTy).Contents (Elt F)) ]

set_option maxRecDepth 2048 in
/-- The entry function is that straight line: the outlined functions unfolded at their calls, the sequencing
    re-associated. -/
theorem main_eq (c : Dev nD) : main (F := F) c = seq ops := by
  simp only [main, fn_take.body, fn_where.body, fn_norm.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub .., nullary_bufs_sub .., binary_bufs_sub .., unary_bufs_sub .., unary_bufs_sub ..,
    nullary_bufs_sub .., unary_bufs_sub .., binary_bufs_sub .., nullary_bufs_sub .., unary_bufs_sub .., binary_bufs_sub ..,
    nullary_bufs_sub .., unary_bufs_sub .., binary_bufs_sub .., unary_bufs_sub .., binary_bufs_sub .., unary_bufs_sub ..,
    unary_bufs_sub .., binary_bufs_sub ..⟩

/-- Every weakly fair execution of the entry function terminates, and every final state has each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefTerms.lean ====
/-
  The reference's composed value, named stage by stage.

  `rowNumbers` is the column of row numbers the lookup reads (`0 … 8191`, a negative one wrapped by the table's
  height); `inRange` says, per row number, whether it lies in `[0, 8191]`; `lookup W` is the table gathered at those
  rows, a row whose number is out of range replaced by a filler; `lengths P` is the column of the rows' Euclidean
  lengths; `scaledSum x P` adds to every batch entry the rows of `P` shrunk by the clip factor of their lengths.
  The reference returns `scaledSum x (lookup W)`.
-/
import proofs.«101833_g4449586119098_cont_8to1_c_163_5_alg».proof.Proof.Gen.ReferenceIdeal

noncomputable section

namespace Cert.ReferenceIdeal.Hand

open Cert.ReferenceIdeal Cert.ReferenceIdeal.Gen Idealize.ShloMosaic

variable {F : FTy → Type} [FloatOps F]

/-- The column of row numbers the lookup reads: position `p`, or `p + 8192` were `p` negative. -/
def rowNumbers : IVec S8192x1 32 :=
  broadcastInDim S8192x1 ![0] bcast_S8192_S8192x1_0
    (select (cmpi .slt (iotaInDim S8192 32 0) (broadcastInDim S8192 ![] bcast_S_S8192 (constantI S_ 32 0#32)))
      (addi (iotaInDim S8192 32 0) (broadcastInDim S8192 ![] bcast_S_S8192 (constantI S_ 32 8192#32)))
      (iotaInDim S8192 32 0))

/-- Per position, whether its row number lies in `[0, 8191]`. -/
def inRange : IVec S8192 1 :=
  Host.reduce IntOp.andi
    (andi (cmpi .sge rowNumbers (broadcastInDim S8192x1 ![] bcast_S_S8192x1 (constantI S_ 32 0#32)))
      (cmpi .sle rowNumbers (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- The table looked up at the row numbers; a row whose number is out of range is replaced by a filler. -/
def lookup (W : FVec F S8192x768 .f32) : FVec F S8192x768 .f32 :=
  select (broadcastInDim S8192x768 ![0] bcast_S8192_S8192x768_0 inRange)
    (Host.gather gather_S8192x768_S8192x1_S8192x768_1_0_n_n_0_1_1768 W rowNumbers)
    (broadcastInDim S8192x768 ![] bcast_S_S8192x768 (constant S_ .f32 0x7FC00000#32))

/-- The column of the rows' Euclidean lengths. -/
def lengths (P : FVec F S8192x768 .f32) : FVec F S8192x1 .f32 :=
  Host.sqrt (broadcastInDim S8192x1 ![0] bcast_S8192_S8192x1_0
    (Host.reduceAdd (mulf P P) (constant S_ .f32 0x00000000#32) reducesTo_S8192x768_S8192_d1 h_S_))

/-- The batch plus the rows of `P`, each shrunk by the clip factor of its length. -/
def scaledSum (x : FVec F S4x8192x768 .f32) (P : FVec F S8192x768 .f32) : FVec F S4x8192x768 .f32 :=
  addf x (broadcastInDim S4x8192x768 ![0, 1, 2] bcast_S1x8192x768_S4x8192x768_0_1_2
    (broadcastInDim S1x8192x768 ![1, 2] bcast_S8192x768_S1x8192x768_1_2
      (mulf P (broadcastInDim S8192x768 ![0, 1] bcast_S8192x1_S8192x768_0_1
        (minimumf (broadcastInDim S8192x1 ![] bcast_S_S8192x1 (constant S_ .f32 0x3F800000#32))
          (Host.divf (broadcastInDim S8192x1 ![] bcast_S_S8192x1 (constant S_ .f32 0x41DDB3D7#32))
            (maximumf (lengths P) (broadcastInDim S8192x1 ![] bcast_S_S8192x1 (constant S_ .f32 0x2B8CBCCC#32)))))))))

end Cert.ReferenceIdeal.Hand

end
-- ==== Proof.RefOut.lean ====
/-
  The reference's run with its result named: the batch plus the looked-up table rows, each shrunk by the clip factor
  of its length; the two arguments unchanged.
-/
import proofs.«101833_g4449586119098_cont_8to1_c_163_5_alg».proof.Proof.RefRun
import proofs.«101833_g4449586119098_cont_8to1_c_163_5_alg».proof.Proof.RefTerms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 1000000 in
/-- The fold of the operations at the result buffer is the staged value: every operation reads the buffers the earlier
    ones wrote, and a typed reference's transport of contents is the identity at a literal reference. -/
theorem out_eq (V : Valuation τ sig (Elt F)) :
    after ops V (main_v13 : DevRef τ sig)
      = scaledSum (V (main_arg0 : DevRef τ sig)) (lookup (V (main_arg1 : DevRef τ sig))) := by
  unfold scaledSum lengths lookup inRange rowNumbers
  after_results_simp
  simp only [TRef.toBuf, TRef.ofBuf, cast_eq]

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- Every weakly fair execution of the reference terminates with its result at the staged value of the arguments and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
          = scaledSum (m ((c.tc : Thread nD τ).loc main_arg0)) (lookup (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v13).trans (out_eq _), (h c main_arg0).trans (arg0_eq _),
      (h c main_arg1).trans (arg1_eq _)⟩)
    (run_main m ρ)

end Cert.ReferenceIdeal.Hand

end
-- ==== Proof.LibEntryForms.lean ====
/-
  Entry-by-entry forms of the three kinds of array the kernel's regions produce, over any sizes, and the same arrays
  as the host's whole-array operations spell them.

  * the per-edge product: entry `(e, q)` is `weight(e, 0) · feature(e, q)`; the host multiplies the features by the
    weight column broadcast along the rows;
  * a layer's combine step: entry `(r, q)` is `agg(r, q) + (d(r, 0) · d(r, 0)) · x(r, q) + b(0, q)`; the host squares the
    inverse-root degrees first, as a vector, makes that a column and broadcasts it, and makes the bias a row and
    broadcasts it — at every entry the same three extended reals are added in the same order;
  * the positive part, entry by entry, against the host's maximum with a broadcast zero;
  * a matrix product: entry `(r, q)` is the sum over `c` of `x(r, c) · w(c, q)`, which is what the host's dot_general with
    the plain dimension numbers is at the exact values.

  None of these uses a law of arithmetic: each pair is the same expression, read through the layout operations.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Forms

open Idealize.ShloMosaic Idealize.ShloMosaic.ValueIdx

/-- An edge's weight times each of its features. -/
def scaled {E W : Nat} (nrm : (⟨2, ![E, 1]⟩ : Shape).Idx → Ideal .f32) (g : (⟨2, ![E, W]⟩ : Shape).Idx → Ideal .f32) :
    (⟨2, ![E, W]⟩ : Shape).Idx → Ideal .f32 :=
  fun i => nrm (ix2 (i 0) (0 : Fin 1)) * g i

/-- Neighbour sum + (inverse-root degree)² · own feature + bias, entry by entry. -/
def combined {N W : Nat} (agg xp : (⟨2, ![N, W]⟩ : Shape).Idx → Ideal .f32) (dis : (⟨2, ![N, 1]⟩ : Shape).Idx → Ideal .f32)
    (b : (⟨2, ![1, W]⟩ : Shape).Idx → Ideal .f32) : (⟨2, ![N, W]⟩ : Shape).Idx → Ideal .f32 :=
  fun i => (agg i + (dis (ix2 (i 0) (0 : Fin 1)) * dis (ix2 (i 0) (0 : Fin 1))) * xp i) + b (ix2 (0 : Fin 1) (i 1))

/-- The positive part, entry by entry. -/
def positivePart {s : Shape} (x : s.Idx → Ideal .f32) : s.Idx → Ideal .f32 :=
  fun i => max (x i) (Ideal.ofBits .f32 0x00000000#32)

/-- The matrix product, entry by entry. -/
def product {N K M : Nat} (x : (⟨2, ![N, K]⟩ : Shape).Idx → Ideal .f32) (w : (⟨2, ![K, M]⟩ : Shape).Idx → Ideal .f32) :
    (⟨2, ![N, M]⟩ : Shape).Idx → Ideal .f32 :=
  fun i => ∑ cc : Fin K, x (ix2 (i 0) cc) * w (ix2 cc (i 1))

/-- A column `[a, 1]` broadcast along the rows by the host reads, at `(p, q)`, the column at `p`. -/
theorem hostColumn_apply {a b : Nat} {α : Type} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` made a column `[a, 1]` by the host reads, at `(p, u)`, the vector at `p`. -/
theorem hostAsColumn_apply {a : Nat} {α : Type} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A row `[1, b]` broadcast down the rows by the host reads, at `(p, q)`, the row at `q`. -/
theorem hostRow_apply {a b : Nat} {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-- A vector `[b]` made a row `[1, b]` by the host reads, at `(u, q)`, the vector at `q`. -/
theorem hostAsRow_apply {b : Nat} {α : Type} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) := by
  refine broadcastInDim_apply ![1] h v (ix2 u q) (ix1 q) fun ax => ?_
  match ax with
  | ⟨0, _⟩ =>
    show q.val = if b = 1 then 0 else q.val
    split
    · have := q.isLt; omega
    · rfl

/-- The per-edge product as the host spells it: the weight column broadcast along the rows, times the features. -/
theorem scaled_eq_host {E W : Nat} (nrm : (⟨2, ![E, 1]⟩ : Shape).Idx → Ideal .f32) (g : (⟨2, ![E, W]⟩ : Shape).Idx → Ideal .f32)
    (h : (⟨2, ![E, 1]⟩ : Shape).BroadcastsInDim ⟨2, ![E, W]⟩ ![0, 1]) :
    scaled nrm g = mulf (F := Ideal) (φ := .f32) (broadcastInDim ⟨2, ![E, W]⟩ ![0, 1] h nrm) g := by
  funext i
  obtain ⟨p, q, rfl⟩ : ∃ (p : Fin E) (q : Fin W), i = ix2 p q := ⟨i 0, i 1, eq_ix2 i⟩
  rw [mulf_apply, hostColumn_apply]
  rfl

/-- The combine step as the host spells it. The kernel is handed the inverse-root degrees as a column and the bias
    as a one-row cast of the bias vector; the host squares the degrees as a vector, then makes the column. -/
theorem combined_eq_host {N W : Nat} (agg xp : (⟨2, ![N, W]⟩ : Shape).Idx → Ideal .f32) (d : (⟨1, ![N]⟩ : Shape).Idx → Ideal .f32)
    (b : (⟨1, ![W]⟩ : Shape).Idx → Ideal .f32)
    (hcol : (⟨1, ![N]⟩ : Shape).BroadcastsInDim ⟨2, ![N, 1]⟩ ![0])
    (hcols : (⟨2, ![N, 1]⟩ : Shape).BroadcastsInDim ⟨2, ![N, W]⟩ ![0, 1])
    (hcast : (⟨1, ![W]⟩ : Shape).ShapeCasts ⟨2, ![1, W]⟩)
    (hrow : (⟨1, ![W]⟩ : Shape).BroadcastsInDim ⟨2, ![1, W]⟩ ![1])
    (hrows : (⟨2, ![1, W]⟩ : Shape).BroadcastsInDim ⟨2, ![N, W]⟩ ![0, 1]) :
    combined agg xp (broadcastInDim ⟨2, ![N, 1]⟩ ![0] hcol d) (shapeCast ⟨2, ![1, W]⟩ b hcast)
      = addf (F := Ideal) (φ := .f32) (addf (F := Ideal) (φ := .f32) agg (mulf (F := Ideal) (φ := .f32) (broadcastInDim ⟨2, ![N, W]⟩ ![0, 1] hcols (broadcastInDim ⟨2, ![N, 1]⟩ ![0] hcol (mulf (F := Ideal) (φ := .f32) d d))) xp))
          (broadcastInDim ⟨2, ![N, W]⟩ ![0, 1] hrows (broadcastInDim ⟨2, ![1, W]⟩ ![1] hrow b)) := by
  funext i
  obtain ⟨p, q, rfl⟩ : ∃ (p : Fin N) (q : Fin W), i = ix2 p q := ⟨i 0, i 1, eq_ix2 i⟩
  rw [addf_apply, addf_apply, mulf_apply, hostColumn_apply, hostAsColumn_apply, mulf_apply, hostRow_apply, hostAsRow_apply]
  show (agg (ix2 p q) + (broadcastInDim ⟨2, ![N, 1]⟩ ![0] hcol d (ix2 p (0 : Fin 1)) * broadcastInDim ⟨2, ![N, 1]⟩ ![0] hcol d (ix2 p (0 : Fin 1))) * xp (ix2 p q))
      + shapeCast ⟨2, ![1, W]⟩ b hcast (ix2 (0 : Fin 1) q) = _
  rw [hostAsColumn_apply, shapeCast_a_1a_apply]

/-- The positive part as the host spells it: the maximum with a broadcast zero. -/
theorem positivePart_eq_host {s : Shape} (x : s.Idx → Ideal .f32) (h : (⟨0, ![]⟩ : Shape).BroadcastsInDim s ![]) :
    positivePart x = maximumf (F := Ideal) (φ := .f32) x (broadcastInDim s ![] h (constant (F := Ideal) ⟨0, ![]⟩ .f32 0x00000000#32)) := by
  funext i
  rw [maximumf_apply]
  rfl

/-- The matrix product as the host spells it: dot_general with the plain dimension numbers. -/
theorem product_eq_host {N K M : Nat} (x : (⟨2, ![N, K]⟩ : Shape).Idx → Ideal .f32) (w : (⟨2, ![K, M]⟩ : Shape).Idx → Ideal .f32)
    (prec : Option ContractPrecision) :
    product x w = Host.dotGeneral (F := Ideal) (DotDims.plain N K M) prec (x : FVec Ideal ⟨2, ![N, K]⟩ .f32) (w : FVec Ideal ⟨2, ![K, M]⟩ .f32) := by
  funext i
  obtain ⟨p, q, rfl⟩ : ∃ (p : Fin N) (q : Fin M), i = ix2 p q := ⟨i 0, i 1, eq_ix2 i⟩
  exact (StackMember.dotGeneral_plain_apply prec x w p q).symm

end Cert.Forms

end
-- ==== Proof.RefValue.lean ====
/-
  The reference's staged value, read entry by entry at the exact values.

  At batch entry `b`, position `r`, feature `q`: the two leading-axis broadcasts read the scaled rows at `(r, q)`;
  the scaled row entry is the row's entry times the clip column at `(r, 0)`; the clip column is
  `min(1, K / max(length r, ε))` with the constants splatted; the length column at `(r, 0)` is the square root of the
  row's sum of squares, which the host's reduce starts from the zero word. That is `PosEnc.entry`.
-/
import proofs.«101833_g4449586119098_cont_8to1_c_163_5_alg».proof.Proof.RefTerms
import proofs.«101833_g4449586119098_cont_8to1_c_163_5_alg».proof.Proof.Spec
import proofs.«101833_g4449586119098_cont_8to1_c_163_5_alg».proof.Proof.LibRowOps
import proofs.«101833_g4449586119098_cont_8to1_c_163_5_alg».proof.Proof.LibEntryForms
import Idealize.ShloMosaic.Lib.IdealHost
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx Cert.PosEnc

/-- The scaled rows broadcast over the batch read, at `(b, r, q)`, the one-entry batch at `(0, r, q)`. -/
theorem overBatch_apply {α : Type} (v : S1x8192x768.Idx → α) (b : Fin 4) (r : Fin 8192) (q : Fin 768) :
    broadcastInDim S4x8192x768 ![0, 1, 2] bcast_S1x8192x768_S4x8192x768_0_1_2 v (ix3 b r q) = v (ix3 (0 : Fin 1) r q) := by
  refine broadcastInDim_apply ![0, 1, 2] _ v (ix3 b r q) (ix3 (0 : Fin 1) r q) fun ax => ?_
  match ax with
  | ⟨0, _⟩ => rfl
  | ⟨1, _⟩ => show r.val = if (8192 : Nat) = 1 then 0 else r.val; rw [if_neg (by decide)]
  | ⟨2, _⟩ => show q.val = if (768 : Nat) = 1 then 0 else q.val; rw [if_neg (by decide)]

/-- A matrix given a leading unit axis reads, at `(0, r, q)`, the matrix at `(r, q)`. -/
theorem asOneBatch_apply {α : Type} (v : S8192x768.Idx → α) (u : Fin 1) (r : Fin 8192) (q : Fin 768) :
    broadcastInDim S1x8192x768 ![1, 2] bcast_S8192x768_S1x8192x768_1_2 v (ix3 u r q) = v (ix2 r q) := by
  refine broadcastInDim_apply ![1, 2] _ v (ix3 u r q) (ix2 r q) fun ax => ?_
  match ax with
  | ⟨0, _⟩ => show r.val = if (8192 : Nat) = 1 then 0 else r.val; rw [if_neg (by decide)]
  | ⟨1, _⟩ => show q.val = if (768 : Nat) = 1 then 0 else q.val; rw [if_neg (by decide)]

/-- The length column at row `r`: the square root of the row's sum of squares. -/
theorem lengths_apply (P : FVec Ideal S8192x768 .f32) (r : Fin 8192) (u : Fin 1) :
    lengths (F := Ideal) P (ix2 r u) = Ideal.sqrt (rowSq P r) := by
  unfold lengths
  show Ideal.sqrt ((broadcastInDim S8192x1 ![0] bcast_S8192_S8192x1_0
    (Host.reduceAdd (F := Ideal) (mulf (F := Ideal) P P) (constant (F := Ideal) S_ .f32 0x00000000#32) reducesTo_S8192x768_S8192_d1 h_S_)) (ix2 r u)) = _
  rw [Cert.Forms.hostAsColumn_apply,
    Cert.LibRowOps.host_rowsum_apply (mulf (F := Ideal) P P) (constant (F := Ideal) S_ .f32 0x00000000#32)
      reducesTo_S8192x768_S8192_d1 (by decide) h_S_ r]
  rw [constant_apply, Ideal.ofBits_zero_f32, zero_add]
  rfl

/-- THE REFERENCE'S VALUE, entry by entry. -/
theorem scaledSum_apply (x : FVec Ideal S4x8192x768 .f32) (P : FVec Ideal S8192x768 .f32) (b : Fin 4) (r : Fin 8192) (q : Fin 768) :
    scaledSum (F := Ideal) x P (ix3 b r q) = entry x P b r q := by
  unfold scaledSum
  rw [addf_apply, overBatch_apply, asOneBatch_apply, mulf_apply, Cert.Forms.hostColumn_apply, minimumf_apply,
    broadcastInDim_scalar_apply, hostDivf_apply, broadcastInDim_scalar_apply, maximumf_apply, broadcastInDim_scalar_apply,
    lengths_apply, constant_apply, constant_apply, constant_apply]
  rfl

/-- So the reference's value is `G` of the batch and the rows it scaled. -/
theorem scaledSum_eq (x : FVec Ideal S4x8192x768 .f32) (P : FVec Ideal S8192x768 .f32) :
    scaledSum (F := Ideal) x P = G x P := by
  funext i
  obtain ⟨b, r, q, rfl⟩ : ∃ (b : Fin 4) (r : Fin 8192) (q : Fin 768), i = ix3 b r q := ⟨i 0, i 1, i 2, eq_ix3 i⟩
  rw [scaledSum_apply, G_ix3]

end Cert.ReferenceIdeal.Hand

end
-- ==== Proof.LibGatherRows.lean ====
/-
  A gather of whole rows, read at an entry.

  `x[ids]` of a table `x : [N, D]` at a column of row numbers `ids : [E, 1]` lowers to a `stablehlo.gather` with offset
  axis 1, collapsed axis 0, start index map `[0]`, index vector axis 1 and slice sizes `[1, D]`. Entry `(e, q)` of the
  result is the table at row `ids[e]` — read signed and clamped into `[0, N − 1]`, as the gather clamps every start
  index — and column `q`. The row depends on the edge `e` alone, never on the column `q`.
-/
import Idealize.ShloMosaic.PureOps.Ideal
import Idealize.ShloMosaic.Lib.ValueIdx

noncomputable section

namespace Cert.GatherRows

open Idealize.ShloMosaic Idealize.ShloMosaic.ValueIdx

/-- Those dimension numbers for a table `[N, D]`, row numbers `[E, 1]` and a result `[E, D]`. -/
abbrev rowsDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The table row edge `e` reads: its row number, read signed and clamped into the table. -/
def rowOf {N E w : Nat} (hN : 0 < N) (idx : IVec ⟨2, ![E, 1]⟩ w) (e : Fin E) : Fin N :=
  ⟨min (idx (ix2 e (0 : Fin 1))).toInt.toNat (N - 1), by omega⟩

variable {α : Type}

/-- THE GATHER READ AT `(e, q)`: the table at the clamped row of edge `e` and column `q`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowsDims N E D wf) x idx (ix2 e q) = x (ix2 (rowOf hN idx e) q) := by
  have hs0 : (rowsDims N E D wf).start (ix2 e q) idx 0 = (rowOf hN idx e).val := by
    unfold GatherDims.start
    rw [dif_pos (show (0 : Fin 2) ∈ (rowsDims N E D wf).startIndexMap from List.mem_singleton.mpr rfl)]
    have hsi : (rowsDims N E D wf).siIdx (ix2 e q) ⟨List.idxOf (0 : Fin 2) (rowsDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have ho0 : (rowsDims N E D wf).offCoord (ix2 e q) 0 = 0 :=
    GatherDims.offCoord_eq_zero _ _ _ (fun h => ((GatherDims.mem_sKept _ _).mp h).1 (List.mem_singleton.mpr rfl))
  have hs1 : (rowsDims N E D wf).start (ix2 e q) idx 1 = 0 := by
    unfold GatherDims.start
    rw [dif_neg (show ¬ (1 : Fin 2) ∈ (rowsDims N E D wf).startIndexMap by
      show ¬ (1 : Fin 2) ∈ [(0 : Fin 2)]; decide)]
  have ho1 : (rowsDims N E D wf).offCoord (ix2 e q) 1 = q.val := by
    unfold GatherDims.offCoord
    rw [dif_pos (show (1 : Fin 2) ∈ (rowsDims N E D wf).sKept by
      show (1 : Fin 2) ∈ (List.finRange 2).filter (fun a => a ∉ ([(0 : Fin 2)] ++ [])); decide)]
    rfl
  unfold Host.gather
  congr 1
  funext a
  refine Fin.ext ?_
  match a with
  | ⟨0, _⟩ =>
    show (rowsDims N E D wf).start (ix2 e q) idx 0 + (rowsDims N E D wf).batchCoord (ix2 e q) 0
      + (rowsDims N E D wf).offCoord (ix2 e q) 0 = (rowOf hN idx e).val
    rw [GatherDims.batchCoord_eq_zero _ _ _ List.not_mem_nil, hs0, ho0]
    rfl
  | ⟨1, _⟩ =>
    show (rowsDims N E D wf).start (ix2 e q) idx 1 + (rowsDims N E D wf).batchCoord (ix2 e q) 1
      + (rowsDims N E D wf).offCoord (ix2 e q) 1 = q.val
    rw [GatherDims.batchCoord_eq_zero _ _ _ List.not_mem_nil, hs1, ho1]
    omega

end Cert.GatherRows

end
-- ==== Proof.RefLookup.lean ====
import proofs.«101833_g4449586119098_cont_8to1_c_163_5_alg».proof.Proof.RefTerms
import proofs.«101833_g4449586119098_cont_8to1_c_163_5_alg».proof.Proof.LibGatherRows
import proofs.«101833_g4449586119098_cont_8to1_c_163_5_alg».proof.Proof.LibEntryForms
import Idealize.ShloMosaic.Lib.Affine
import Idealize.ShloMosaic.Lib.IdealHost
import Idealize.ShloMosaic.Lib.ValueIdx
import Idealize.ShloMosaic.Lib.Pipeline.Value
import Idealize.ShloMosaic.PureOps.Reduce
noncomputable section
namespace Cert.ReferenceIdeal.Hand
open Cert.ReferenceIdeal Cert.ReferenceIdeal.Gen Idealize.ShloMosaic Idealize.ShloMosaic.ValueIdx
variable {F : FTy → Type} [FloatOps F]

/-!
  The table looked up at every one of its own row numbers is the table.

  Position `r` of the lookup (`r < 8192`) carries the row number `r` as a 32-bit word. Read signed, that word is `r`
  itself, because `r < 2 ^ 31`. So it is not negative and the wrap by the table's height is not taken; it lies in
  `[0, 8191]`, so the range test passes at every position; clamped into `[0, 8191]` it is `r` again, so the gather
  reads the table's own row `r`; and the last select, its condition true, takes the gathered row, not the filler.
-/

/-- The word of a number below 8192 reads, signed, as that number. -/
theorem toInt_rowWord (r : Fin 8192) : (BitVec.ofNat 32 r.val).toInt = (r.val : Int) := by
  have hr := r.isLt
  have hm : r.val % 2 ^ 32 = r.val := Nat.mod_eq_of_lt (by omega)
  rw [BitVec.toInt_eq_toNat_cond, BitVec.toNat_ofNat, hm]
  split <;> omega

/-- Row number `r` of the column is the word of `r`: it is not negative, so the select keeps it unwrapped. -/
theorem rowNumbers_apply (r : Fin 8192) (u : Fin 1) : rowNumbers (ix2 r u) = BitVec.ofNat 32 r.val := by
  unfold rowNumbers
  refine (Cert.Forms.hostAsColumn_apply _ _ r u).trans ?_
  have hc : IntOp.cmpi .slt (BitVec.ofNat 32 r.val) 0#32 = 0#1 :=
    eq_zero_of_ne_one fun h => by
      have hlt := IntOp.cmpi_slt.mp h
      rw [toInt_rowWord] at hlt
      have h0 : (0#32 : BitVec 32).toInt = 0 := by decide
      omega
  show Scalar.select (IntOp.cmpi .slt (BitVec.ofNat 32 r.val) 0#32) _ (BitVec.ofNat 32 r.val) = _
  rw [hc, select_zero]

/-- A conjunction of true bits, started from a true bit, is true. -/
theorem foldl_andi_one {ι : Type} (x : ι → BitVec 1) (hx : ∀ i, x i = 1#1) (l : List ι) :
    l.foldl (fun c i => IntOp.andi c (x i)) 1#1 = 1#1 := by
  induction l with
  | nil => rfl
  | cons a l ih =>
    rw [List.foldl_cons, hx a, show IntOp.andi 1#1 1#1 = (1#1 : BitVec 1) from by decide]
    exact ih

/-- Every position is in range: `0 ≤ r` and `r ≤ 8191` hold of every row number, so their conjunction, and its
    reduction over the column's one-entry axis, is the true bit. -/
theorem inRange_apply (r : Fin 8192) : inRange (ix1 r) = 1#1 := by
  unfold inRange
  rw [Host.reduce_eq_foldl]
  refine foldl_andi_one _ (fun i => ?_) _
  obtain ⟨p, u, rfl⟩ : ∃ (p : Fin 8192) (u : Fin 1), i = ix2 p u := ⟨i 0, i 1, eq_ix2 i⟩
  show IntOp.andi (IntOp.cmpi .sge (rowNumbers (ix2 p u)) 0#32) (IntOp.cmpi .sle (rowNumbers (ix2 p u)) 8191#32) = 1#1
  rw [rowNumbers_apply]
  have hp := p.isLt
  have h0 : (0#32 : BitVec 32).toInt = 0 := by decide
  have h1 : (8191#32 : BitVec 32).toInt = 8191 := by decide
  refine IntOp.andi_eq_one.mpr ⟨IntOp.cmpi_sge.mpr ?_, IntOp.cmpi_sle.mpr ?_⟩
  · rw [toInt_rowWord]; omega
  · rw [toInt_rowWord]; omega

/-- A vector over the rows, broadcast along the columns, reads at `(r, q)` the vector at `r`. -/
theorem alongColumns_apply {α : Type} (v : S8192.Idx → α) (r : Fin 8192) (q : Fin 768) :
    broadcastInDim S8192x768 ![0] bcast_S8192_S8192x768_0 v (ix2 r q) = v (ix1 r) := by
  refine broadcastInDim_apply ![0] bcast_S8192_S8192x768_0 v (ix2 r q) (ix1 r) fun ax => ?_
  match ax with
  | ⟨0, _⟩ =>
    show r.val = if (8192 : Nat) = 1 then 0 else r.val
    rw [if_neg (by decide)]

/-- The gather reads, at `(r, q)`, the table at `(r, q)`: row number `r` clamped into `[0, 8191]` is `r`. -/
theorem gathered_apply (W : FVec F S8192x768 .f32) (r : Fin 8192) (q : Fin 768) :
    Host.gather gather_S8192x768_S8192x1_S8192x768_1_0_n_n_0_1_1768 W rowNumbers (ix2 r q) = W (ix2 r q) := by
  have hrow : Cert.GatherRows.rowOf (N := 8192) (by decide) rowNumbers r = r := Fin.ext (by
    show min (rowNumbers (ix2 r (0 : Fin 1))).toInt.toNat (8192 - 1) = r.val
    rw [rowNumbers_apply, toInt_rowWord]
    have hr := r.isLt
    omega)
  refine (Cert.GatherRows.gather_rows_apply (N := 8192) (E := 8192) (D := 768) (by decide)
    gather_S8192x768_S8192x1_S8192x768_1_0_n_n_0_1_1768_wf W rowNumbers r q).trans ?_
  rw [hrow]

/-- THE LOOKUP IS THE TABLE: at every entry the range bit is true and the gathered row is the table's own. -/
theorem lookup_eq (W : FVec F S8192x768 .f32) : lookup W = W := by
  funext i
  obtain ⟨r, q, rfl⟩ : ∃ (r : Fin 8192) (q : Fin 768), i = ix2 r q := ⟨i 0, i 1, eq_ix2 i⟩
  unfold lookup
  rw [select_apply, alongColumns_apply, inRange_apply, select_one, gathered_apply]

end Cert.ReferenceIdeal.Hand

end
-- ==== Proof.lean ====
/-
  The certificate of the positional-encoding kernel against its jnp reference, over the extended reals.

  Both programs compute, at batch entry `b`, position `r`, feature `q`,

      x(b, r, q) + W(r, q) · min(1, K / max(√(∑_q' W(r, q')²), ε))

  with the same two float literals `K` and `ε` (`PosEnc.G`, Proof/Spec.lean). The kernel does so block by block over
  eight blocks of 1024 positions, each block holding whole table rows (Proof/KernelValue.lean, over the generated value
  leg). The reference first looks the table up at the positions `0 … 8191` — which returns the table itself
  (Proof/RefLookup.lean) — and then scales and adds whole arrays (Proof/RefValue.lean); its run is Proof/RefRun.lean and
  Proof/RefOut.lean. No law of arithmetic is needed beyond reading both sides at an entry: the two sums run over the
  same row in the same form, so the precondition is never opened. The idealization rewrote no operation, so
  `preserves` asks nothing.
-/
import proofs.«101833_g4449586119098_cont_8to1_c_163_5_alg».proof.Defs
import proofs.«101833_g4449586119098_cont_8to1_c_163_5_alg».proof.Proof.Gen.Kernel
import proofs.«101833_g4449586119098_cont_8to1_c_163_5_alg».proof.Proof.Gen.Kernel.Skeleton
import proofs.«101833_g4449586119098_cont_8to1_c_163_5_alg».proof.Proof.Gen.Kernel.Launch
import proofs.«101833_g4449586119098_cont_8to1_c_163_5_alg».proof.Proof.Gen.Kernel.Points
import proofs.«101833_g4449586119098_cont_8to1_c_163_5_alg».proof.Proof.Gen.Kernel.Frame
import proofs.«101833_g4449586119098_cont_8to1_c_163_5_alg».proof.Proof.Gen.KernelIdeal
import proofs.«101833_g4449586119098_cont_8to1_c_163_5_alg».proof.Proof.Gen.KernelIdeal.Skeleton
import proofs.«101833_g4449586119098_cont_8to1_c_163_5_alg».proof.Proof.Gen.KernelIdeal.Launch
import proofs.«101833_g4449586119098_cont_8to1_c_163_5_alg».proof.Proof.Gen.KernelIdeal.Points
import proofs.«101833_g4449586119098_cont_8to1_c_163_5_alg».proof.Proof.Gen.KernelIdeal.Frame
import proofs.«101833_g4449586119098_cont_8to1_c_163_5_alg».proof.Proof.Gen.ReferenceIdeal
import proofs.«101833_g4449586119098_cont_8to1_c_163_5_alg».proof.Proof.Gen.Pre_finite_inputs
import proofs.«101833_g4449586119098_cont_8to1_c_163_5_alg».proof.Proof.KernelValue
import proofs.«101833_g4449586119098_cont_8to1_c_163_5_alg».proof.Proof.RefOut
import proofs.«101833_g4449586119098_cont_8to1_c_163_5_alg».proof.Proof.RefValue
import proofs.«101833_g4449586119098_cont_8to1_c_163_5_alg».proof.Proof.RefLookup
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- From memories agreeing on the arguments both runs end with the result array at `PosEnc.G` of the arguments: the
    kernel's by its blocks, the reference's because the lookup returns the table and the rest is `G` entry by entry. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2, Cert.ReferenceIdeal.Hand.lookup_eq, Cert.ReferenceIdeal.Hand.scaledSum_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
